-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S4000x128 : Shape := ⟨2, ![4000, 128]⟩
abbrev S1x128 : Shape := ⟨2, ![1, 128]⟩
abbrev S100000x64 : Shape := ⟨2, ![100000, 64]⟩
abbrev S4000x64 : Shape := ⟨2, ![4000, 64]⟩
abbrev S1x64 : Shape := ⟨2, ![1, 64]⟩

abbrev nBuf : Space → Nat
  | .hbm => 42
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S1600000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x64, .f32⟩
  | .local _ .vmem, ⟨9, _⟩ => ⟨S64, .f32⟩
  | .local _ .vmem, ⟨10, _⟩ => ⟨S4000x64, .f32⟩
  | .local _ .vmem, ⟨11, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v12) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S1600000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Dense.lean ====
/-
  One dense layer read at an index, on both sides.

  The reference computes a layer on the whole [100000, 128] array: the product with the weight matrix
  (a sum over the 128 contracted positions), plus the bias broadcast along the rows, and for the first layer the
  maximum with zero.  The kernel computes the same expression on a block of 4000 rows: the product into a zero
  accumulator of the block and the weights (both narrowed to bf16, which on the extended reals is the identity),
  plus the bias broadcast along the block's rows, and for the first layer the maximum with zero.

  Each of these, read at row `r` and column `q`, is
      max ((∑ k, h(r, k) · W(k, q)) + b(q)) 0        (first layer)
      (∑ k, h(r, k) · W(k, q)) + b(q)                (second layer)
  with `h` the whole array (reference) or the block (kernel).  Nothing here needs the entries to be finite: the
  two sides are the same sum of the same products.
-/
import proofs.«162314_j12979391168796_1_alg».proof.Proof.Gen.KernelIdeal.Skeleton
import proofs.«162314_j12979391168796_1_alg».proof.Proof.Gen.ReferenceIdeal.Read
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.Gcn

/-! ## The reference's layers -/

section Reference
open Cert.ReferenceIdeal Cert.ReferenceIdeal.Facts₀

/-- The first layer as the reference writes it: `max (h · W + b) 0` over the whole array. -/
def dense1 (h : FVec Ideal S100000x128 .f32) (W : FVec Ideal S128x128 .f32) (b : FVec Ideal S128 .f32) :
    FVec Ideal S100000x128 .f32 :=
  maximumf (addf (Host.dotGeneral dot_S100000x128_S128x128_S100000x128_1_0_0_1_n_n none h W)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The second layer as the reference writes it: `h · W + b` over the whole array. -/
def dense2 (h : FVec Ideal S100000x128 .f32) (W : FVec Ideal S128x64 .f32) (b : FVec Ideal S64 .f32) :
    FVec Ideal S100000x64 .f32 :=
  addf (Host.dotGeneral dot_S100000x128_S128x64_S100000x64_1_0_0_1_n_n none h W)
    (broadcastInDim S100000x64 ![0, 1] bcast_S1x64_S100000x64_0_1 (broadcastInDim S1x64 ![1] bcast_S64_S1x64_1 b))

/-- The first product at row `r`, column `q`: the sum over the contracted position. -/
theorem prod1_apply (h : FVec Ideal S100000x128 .f32) (W : FVec Ideal S128x128 .f32) (r : Fin 100000) (q : Fin 128) :
    Host.dotGeneral dot_S100000x128_S128x128_S100000x128_1_0_0_1_n_n none h W (ix2 r q)
      = ∑ k : Fin 128, h (ix2 r k) * W (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r q) ((contrEquiv1 dot_S100000x128_S128x128_S100000x128_1_0_0_1_n_n 128 rfl rfl).symm k) = ix2 r k := funext fun a => Fin.ext (by
    match a with
    | ⟨0, _⟩ => exact Read.lhs_main_v13_0 _ _
    | ⟨1, _⟩ => exact (Read.lhs_main_v13_1 _ _).trans hk)
  have er : dot_S100000x128_S128x128_S100000x128_1_0_0_1_n_n.rhsIdx (ix2 r q) ((contrEquiv1 dot_S100000x128_S128x128_S100000x128_1_0_0_1_n_n 128 rfl rfl).symm k) = ix2 k q := funext fun a => Fin.ext (by
    match a with
    | ⟨0, _⟩ => exact (Read.rhs_main_v13_0 _ _).trans hk
    | ⟨1, _⟩ => exact Read.rhs_main_v13_1 _ _)
  rw [el, er]

/-- The second product at row `r`, column `q`. -/
theorem prod2_apply (h : FVec Ideal S100000x128 .f32) (W : FVec Ideal S128x64 .f32) (r : Fin 100000) (q : Fin 64) :
    Host.dotGeneral dot_S100000x128_S128x64_S100000x64_1_0_0_1_n_n none h W (ix2 r q)
      = ∑ k : Fin 128, h (ix2 r k) * W (ix2 k q) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 r q) ((contrEquiv1 dot_S100000x128_S128x64_S100000x64_1_0_0_1_n_n 128 rfl rfl).symm k) = ix2 r k := funext fun a => Fin.ext (by
    match a with
    | ⟨0, _⟩ => exact Read.lhs_main_v31_0 _ _
    | ⟨1, _⟩ => exact (Read.lhs_main_v31_1 _ _).trans hk)
  have er : dot_S100000x128_S128x64_S100000x64_1_0_0_1_n_n.rhsIdx (ix2 r q) ((contrEquiv1 dot_S100000x128_S128x64_S100000x64_1_0_0_1_n_n 128 rfl rfl).symm k) = ix2 k q := funext fun a => Fin.ext (by
    match a with
    | ⟨0, _⟩ => exact (Read.rhs_main_v31_0 _ _).trans hk
    | ⟨1, _⟩ => exact Read.rhs_main_v31_1 _ _)
  rw [el, er]

/-- The first bias, broadcast to a row and then along the rows, read at `(r, q)` is `b q`. -/
theorem bias1_apply (b : FVec Ideal S128 .f32) (r : Fin 100000) (q : Fin 128) :
    broadcastInDim S100000x128 ![0, 1] bcast_S1x128_S100000x128_0_1 (broadcastInDim S1x128 ![1] bcast_S128_S1x128_1 b) (ix2 r q)
      = b (ix1 q) :=
  (broadcastInDim_apply _ bcast_S1x128_S100000x128_0_1 _ (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)])).trans
    (broadcastInDim_apply _ bcast_S128_S1x128_1 b (ix2 (0 : Fin 1) q) (ix1 q) (fun a => match a with
      | ⟨0, _⟩ => by show q.val = if (128 : Nat) = 1 then 0 else q.val; rw [if_neg (by decide)]))

/-- The second bias read at `(r, q)` is `b q`. -/
theorem bias2_apply (b : FVec Ideal S64 .f32) (r : Fin 100000) (q : Fin 64) :
    broadcastInDim S100000x64 ![0, 1] bcast_S1x64_S100000x64_0_1 (broadcastInDim S1x64 ![1] bcast_S64_S1x64_1 b) (ix2 r q)
      = b (ix1 q) :=
  (broadcastInDim_apply _ bcast_S1x64_S100000x64_0_1 _ (ix2 r q) (ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)])).trans
    (broadcastInDim_apply _ bcast_S64_S1x64_1 b (ix2 (0 : Fin 1) q) (ix1 q) (fun a => match a with
      | ⟨0, _⟩ => by show q.val = if (64 : Nat) = 1 then 0 else q.val; rw [if_neg (by decide)]))

/-- The broadcast zero constant is the extended real `0` everywhere. -/
theorem zeros_apply (i : S100000x128.Idx) :
    broadcastInDim S100000x128 ![] bcast_S_S100000x128 (constant (F := Ideal) S_ .f32 0x00000000#32) i = 0 :=
  (broadcastInDim_apply _ bcast_S_S100000x128 _ i ix0 (fun a => a.elim0)).trans Ideal.ofBits_zero_f32

/-- THE FIRST LAYER at row `r`, column `q`. -/
theorem dense1_apply (h : FVec Ideal S100000x128 .f32) (W : FVec Ideal S128x128 .f32) (b : FVec Ideal S128 .f32)
    (r : Fin 100000) (q : Fin 128) :
    dense1 h W b (ix2 r q) = max ((∑ k : Fin 128, h (ix2 r k) * W (ix2 k q)) + b (ix1 q)) 0 := by
  unfold dense1
  rw [maximumf_apply, addf_apply, prod1_apply, bias1_apply, zeros_apply]

/-- THE SECOND LAYER at row `r`, column `q`. -/
theorem dense2_apply (h : FVec Ideal S100000x128 .f32) (W : FVec Ideal S128x64 .f32) (b : FVec Ideal S64 .f32)
    (r : Fin 100000) (q : Fin 64) :
    dense2 h W b (ix2 r q) = (∑ k : Fin 128, h (ix2 r k) * W (ix2 k q)) + b (ix1 q) := by
  unfold dense2
  rw [addf_apply, prod2_apply, bias2_apply]

end Reference

/-! ## The kernel's payloads -/

section Kernel
open Cert.KernelIdeal Cert.KernelIdeal.Facts₀

/-- The contraction's operand indices of the first block product: row `p` of the block against column `q` of the weights. -/
theorem lhs0_0 (i : S4000x128.Idx) (s : dot_S4000x128_S128x128_S4000x128_1_0_0_1_n_n.contr.Idx) :
    (dot_S4000x128_S128x128_S4000x128_1_0_0_1_n_n.lhsIdx i s 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs0_1 (i : S4000x128.Idx) (s : dot_S4000x128_S128x128_S4000x128_1_0_0_1_n_n.contr.Idx) :
    (dot_S4000x128_S128x128_S4000x128_1_0_0_1_n_n.lhsIdx i s 1).val = (s ⟨0, by decide⟩).val :=
  dot_S4000x128_S128x128_S4000x128_1_0_0_1_n_n.lhsIdx_val_of_single rfl i s
theorem rhs0_0 (i : S4000x128.Idx) (s : dot_S4000x128_S128x128_S4000x128_1_0_0_1_n_n.contr.Idx) :
    (dot_S4000x128_S128x128_S4000x128_1_0_0_1_n_n.rhsIdx i s 0).val = (s ⟨0, by decide⟩).val :=
  dot_S4000x128_S128x128_S4000x128_1_0_0_1_n_n.rhsIdx_val_of_single rfl i s
theorem rhs0_1 (i : S4000x128.Idx) (s : dot_S4000x128_S128x128_S4000x128_1_0_0_1_n_n.contr.Idx) :
    (dot_S4000x128_S128x128_S4000x128_1_0_0_1_n_n.rhsIdx i s 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The same for the second block product (64 output columns). -/
theorem lhs1_0 (i : S4000x64.Idx) (s : dot_S4000x128_S128x64_S4000x64_1_0_0_1_n_n.contr.Idx) :
    (dot_S4000x128_S128x64_S4000x64_1_0_0_1_n_n.lhsIdx i s 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs1_1 (i : S4000x64.Idx) (s : dot_S4000x128_S128x64_S4000x64_1_0_0_1_n_n.contr.Idx) :
    (dot_S4000x128_S128x64_S4000x64_1_0_0_1_n_n.lhsIdx i s 1).val = (s ⟨0, by decide⟩).val :=
  dot_S4000x128_S128x64_S4000x64_1_0_0_1_n_n.lhsIdx_val_of_single rfl i s
theorem rhs1_0 (i : S4000x64.Idx) (s : dot_S4000x128_S128x64_S4000x64_1_0_0_1_n_n.contr.Idx) :
    (dot_S4000x128_S128x64_S4000x64_1_0_0_1_n_n.rhsIdx i s 0).val = (s ⟨0, by decide⟩).val :=
  dot_S4000x128_S128x64_S4000x64_1_0_0_1_n_n.rhsIdx_val_of_single rfl i s
theorem rhs1_1 (i : S4000x64.Idx) (s : dot_S4000x128_S128x64_S4000x64_1_0_0_1_n_n.contr.Idx) :
    (dot_S4000x128_S128x64_S4000x64_1_0_0_1_n_n.rhsIdx i s 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The first block product into the zero accumulator, at row `p` of the block and column `q`. -/
theorem blockProd0_apply (x : FVec Ideal S4000x128 .bf16) (W : FVec Ideal S128x128 .bf16) (p : Fin 4000) (q : Fin 128) :
    matmul dot_S4000x128_S128x128_S4000x128_1_0_0_1_n_n none x W (constant S4000x128 .f32 0x00000000#32) (ix2 p q)
      = ∑ k : Fin 128, x (ix2 p k) * W (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The second block product into the zero accumulator, at row `p` of the block and column `q`. -/
theorem blockProd1_apply (x : FVec Ideal S4000x128 .bf16) (W : FVec Ideal S128x64 .bf16) (p : Fin 4000) (q : Fin 64) :
    matmul dot_S4000x128_S128x64_S4000x64_1_0_0_1_n_n none x W (constant S4000x64 .f32 0x00000000#32) (ix2 p q)
      = ∑ k : Fin 128, x (ix2 p k) * W (ix2 k q) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- The first bias as the kernel lays it out — recast to one row, broadcast along the block's rows — at `(p, q)` is `b q`. -/
theorem blockBias0_apply (b : FVec Ideal S128 .f32) (p : Fin 4000) (q : Fin 128) :
    broadcastTo S4000x128 (shapeCast S1x128 b shapeCasts_S128_S1x128) broadcasts_S1x128_S4000x128 (ix2 p q) = b (ix1 q) :=
  (broadcastTo_apply _ broadcasts_S1x128_S4000x128 (ix2 p q) (ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])).trans
    ((shapeCast_addUnit_apply ![128] b shapeCasts_S128_S1x128 (ix2 (0 : Fin 1) q)).trans
      (congrArg b (funext fun a => match a with | ⟨0, _⟩ => rfl)))

/-- The second bias likewise. -/
theorem blockBias1_apply (b : FVec Ideal S64 .f32) (p : Fin 4000) (q : Fin 64) :
    broadcastTo S4000x64 (shapeCast S1x64 b shapeCasts_S64_S1x64) broadcasts_S1x64_S4000x64 (ix2 p q) = b (ix1 q) :=
  (broadcastTo_apply _ broadcasts_S1x64_S4000x64 (ix2 p q) (ix2 (0 : Fin 1) q) (fun a => match a with
      | ⟨0, _⟩ => by show 0 = if (1 : Nat) = 1 then 0 else _; rw [if_pos rfl]
      | ⟨1, _⟩ => by show q.val = if (64 : Nat) = 1 then 0 else q.val; rw [if_neg (by decide)])).trans
    ((shapeCast_addUnit_apply ![64] b shapeCasts_S64_S1x64 (ix2 (0 : Fin 1) q)).trans
      (congrArg b (funext fun a => match a with | ⟨0, _⟩ => rfl)))

/-- THE FIRST PAYLOAD at row `p` of the block, column `q`: the narrowing to bf16 is the identity on the extended reals. -/
theorem pay0_apply (x : Vec Ideal S4000x128 .f32) (W : Vec Ideal S128x128 .f32) (b : Vec Ideal S128 .f32) (p : Fin 4000) (q : Fin 128) :
    Gen.k0_pay1 x W b (ix2 p q) = max ((∑ k : Fin 128, x (ix2 p k) * W (ix2 k q)) + b (ix1 q)) 0 := by
  unfold Gen.k0_pay1
  rw [maximumf_apply, addf_apply, blockProd0_apply, blockBias0_apply, shapeCast_self]
  exact congrArg (max _) Ideal.ofBits_zero_f32

/-- THE SECOND PAYLOAD at row `p` of the block, column `q`. -/
theorem pay1_apply (x : Vec Ideal S4000x128 .f32) (W : Vec Ideal S128x64 .f32) (b : Vec Ideal S64 .f32) (p : Fin 4000) (q : Fin 64) :
    Gen.k1_pay1 x W b (ix2 p q) = (∑ k : Fin 128, x (ix2 p k) * W (ix2 k q)) + b (ix1 q) := by
  unfold Gen.k1_pay1
  rw [addf_apply, blockProd1_apply, blockBias1_apply, shapeCast_self]
  rfl

end Kernel

/-! ## A block of rows against the whole array -/

section Blocks
open Cert.KernelIdeal

/-- If the block `x` holds rows `4000·t … 4000·t + 3999` of the array `h`, the first payload at row `p` of the block is
    the first layer of the whole array at row `4000·t + p`: the same sum of the same products. -/
theorem pay0_eq_dense1 (x : Vec Ideal S4000x128 .f32) (W : Vec Ideal S128x128 .f32) (b : Vec Ideal S128 .f32)
    (h : FVec Ideal Cert.ReferenceIdeal.S100000x128 .f32) (t : Nat) (ht : t < 25)
    (hx : ∀ (p : Fin 4000) (k : Fin 128), x (ix2 p k) = h (ix2 (⟨4000 * t + p.val, by have := p.isLt; omega⟩ : Fin 100000) k))
    (p : Fin 4000) (q : Fin 128) :
    Gen.k0_pay1 x W b (ix2 p q) = dense1 h W b (ix2 (⟨4000 * t + p.val, by have := p.isLt; omega⟩ : Fin 100000) q) := by
  rw [pay0_apply, dense1_apply]
  exact congrArg (fun s => max (s + b (ix1 q)) 0) (Finset.sum_congr rfl fun k _ => by rw [hx p k])

/-- The same for the second payload and the second layer. -/
theorem pay1_eq_dense2 (x : Vec Ideal S4000x128 .f32) (W : Vec Ideal S128x64 .f32) (b : Vec Ideal S64 .f32)
    (h : FVec Ideal Cert.ReferenceIdeal.S100000x128 .f32) (t : Nat) (ht : t < 25)
    (hx : ∀ (p : Fin 4000) (k : Fin 128), x (ix2 p k) = h (ix2 (⟨4000 * t + p.val, by have := p.isLt; omega⟩ : Fin 100000) k))
    (p : Fin 4000) (q : Fin 64) :
    Gen.k1_pay1 x W b (ix2 p q) = dense2 h W b (ix2 (⟨4000 * t + p.val, by have := p.isLt; omega⟩ : Fin 100000) q) := by
  rw [pay1_apply, dense2_apply]
  exact congrArg (fun s => s + b (ix1 q)) (Finset.sum_congr rfl fun k _ => by rw [hx p k])

end Blocks

end Cert.Gcn

end
-- ==== Proof.Region0.lean ====
/-
  The first region's output array as one function of the arrays the region finds.

  The region runs over 25 grid points; point `t` stages rows `4000·t … 4000·t + 3999` of the aggregated features,
  the whole weight matrix and the whole bias, and writes back rows `4000·t … 4000·t + 3999` of the output.  The 25
  row blocks tile the 100000 rows, so the output array ends at the first dense layer of the whole input array.
-/
import proofs.«162314_j12979391168796_1_alg».proof.Proof.Gen.KernelIdeal.Frame
import proofs.«162314_j12979391168796_1_alg».proof.Proof.Dense
import Idealize.ShloMosaic.Lib.ValueIdx
import Idealize.ShloMosaic.Lib.Pipeline.Value

noncomputable section

open Idealize.ShloMosaic Idealize.ShloMosaic.ValueIdx Idealize.ShloMosaic.TcCoe Idealize.SL.Sem
open Idealize.ShloMosaic.Pipeline (Dat)

namespace Cert.Gcn.Region0

open Cert.KernelIdeal Cert.KernelIdeal.Gen

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- Where each window's block sits at grid point `t`: the row windows at block row `t`, the weights and the bias
    always at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The staged block of the input rows at point `t` is rows `4000·t + p` of the array the region finds. -/
theorem rows_apply (c : Dev nD) (t : Fin cfg0.N) (p : Fin 4000) (k : Fin 128) :
    (iblk0 V c 0 t : Vec Ideal S4000x128 .f32) (ix2 p k)
      = (V c main_v12 : S100000x128.Idx → Elt Ideal .f32) (ix2 (⟨4000 * t.val + p.val, by have := p.isLt; have := t.isLt; have : cfg0.N = 25 := N_0; omega⟩ : Fin 100000) k) := by
  obtain ⟨e0, e1, -⟩ := block_indices t
  unfold iblk0
  rw [View.read_apply]
  show V c main_v12 _ = V c main_v12 _
  congr 1
  funext a
  apply Fin.ext
  match a with
  | ⟨0, _⟩ => show win0_0.index t 0 * 4000 + 1 * p.val = 4000 * t.val + p.val; rw [e0]; omega
  | ⟨1, _⟩ => show win0_0.index t 1 * 128 + 1 * k.val = k.val; rw [e1]; omega

/-- The staged weights at every point are the whole weight matrix. -/
theorem weights_eq (c : Dev nD) (t : Fin cfg0.N) :
    (iblk0 V c 1 t : Vec Ideal S128x128 .f32) = (V c main_arg4 : S128x128.Idx → Elt Ideal .f32) := by
  obtain ⟨-, -, e2, e3, -⟩ := block_indices t
  funext y
  unfold iblk0
  rw [View.read_apply]
  show V c main_arg4 _ = V c main_arg4 _
  congr 1
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- The staged bias at every point is the whole bias. -/
theorem bias_eq (c : Dev nD) (t : Fin cfg0.N) :
    (iblk0 V c 2 t : Vec Ideal S128 .f32) = (V c main_arg5 : S128.Idx → Elt Ideal .f32) := by
  obtain ⟨-, -, -, -, e4, -⟩ := block_indices t
  funext y
  unfold iblk0
  rw [View.read_apply]
  show V c main_arg5 _ = V c main_arg5 _
  congr 1
  funext a
  apply Fin.ext
  match a with
  | ⟨0, _⟩ => show win0_2.index t 0 * 128 + 1 * (y 0).val = (y 0).val; rw [e4]; omega

/-- The region's output as a function of what it finds: the first dense layer of the input array. -/
abbrev layer (c : Dev nD) : S100000x128.Idx → Elt Ideal .f32 :=
  dense1 (V c main_v12) (V c main_arg4) (V c main_arg5)

/-- WHAT POINT `t` WRITES BACK is block `t` of the layer of the whole array. -/
theorem flushed_eq (c : Dev nD) (t : Fin cfg0.N) :
    (dat0 V c).flushed 3 t = ((cfg0.win 3).blk t).view.read (Elt Ideal) (layer V c) := by
  show (cfg0.win 3).cut (grid0.coords t) ((dat0 V c).after 3 t) = _
  rw [after0_3]
  unfold out0_3
  rw [View.canon_unit_zero off2]
  simp only [View.ld_unit_zero (S := S4000x128) off2, View.ld_unit_zero (S := S128x128) off2, View.ld_unit_zero (S := S128) off1]
  rw [weights_eq, bias_eq]
  obtain ⟨-, -, -, -, -, e5, e6⟩ := block_indices t
  have hN : cfg0.N = 25 := N_0
  funext j
  obtain ⟨p, q, rfl⟩ : ∃ (p : Fin 4000) (q : Fin 128), j = ix2 p q := ⟨j 0, j 1, eq_ix2 j⟩
  show k0_pay1 (iblk0 V c 0 t) (V c main_arg4) (V c main_arg5) (ix2 p q) = layer V c (((cfg0.win 3).blk t).view.emb (ix2 p q))
  have hemb : ((cfg0.win 3).blk t).view.emb (ix2 p q)
      = ix2 (⟨4000 * t.val + p.val, by have := p.isLt; have := t.isLt; omega⟩ : Fin 100000) q := by
    funext a
    apply Fin.ext
    match a with
    | ⟨0, _⟩ => show win0_3.index t 0 * 4000 + 1 * p.val = 4000 * t.val + p.val; rw [e5]; omega
    | ⟨1, _⟩ => show win0_3.index t 1 * 128 + 1 * q.val = q.val; rw [e6]; omega
  rw [hemb]
  exact pay0_eq_dense1 (iblk0 V c 0 t) (V c main_arg4) (V c main_arg5) (V c main_v12) t.val (by have := t.isLt; omega)
    (fun p k => rows_apply V c t p k) p q

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v13).slice (win0_3.rect t)).set ↔ _
  rw [View.set_slice_whole, Rect.mem_set_unit]
  exact Iff.rfl

/-- Every row of the output lies in the block of the point `row / 4000`. -/
theorem cover (i : S100000x128.Idx) : ∃ t : Fin cfg0.N, (cfg0.win 3).flush t = true ∧ i ∈ ((cfg0.win 3).blk t).view.set := by
  have hN : cfg0.N = 25 := N_0
  have hi0 : (i 0).val < 100000 := (i 0).isLt
  have hi1 : (i 1).val < 128 := (i 1).isLt
  let t : Fin cfg0.N := ⟨(i 0).val / 4000, by omega⟩
  obtain ⟨-, -, -, -, -, e5, e6⟩ := block_indices t
  have ht : t.val = (i 0).val / 4000 := rfl
  refine ⟨t, flush0_3 t, ?_⟩
  rw [mem_blk]
  intro a
  match a with
  | ⟨0, _⟩ => show win0_3.index t 0 * 4000 ≤ (i 0).val ∧ (i 0).val < win0_3.index t 0 * 4000 + 4000; rw [e5, ht]; omega
  | ⟨1, _⟩ => show win0_3.index t 1 * 128 ≤ (i 1).val ∧ (i 1).val < win0_3.index t 1 * 128 + 128; rw [e6]; omega

/-- THE OUTPUT ARRAY after the region: the first dense layer of the input array the region found. -/
theorem final (c : Dev nD) : (dat0 V c).arrAt 3 cfg0.N = layer V c :=
  (dat0 V c).arrAt_eq_of_cover 3 (layer V c) (fun t _ => flushed_eq V c t) cover

end Cert.Gcn.Region0

end
-- ==== Proof.Region1.lean ====
/-
  The second region's output array as one function of the arrays the region finds.

  As in the first region, point `t` of the 25 stages rows `4000·t … 4000·t + 3999` of the aggregated hidden
  features, the whole [128, 64] weight matrix and the whole bias, and writes back rows `4000·t … 4000·t + 3999` of
  the [100000, 64] output.  The row blocks tile the rows, so the output array ends at the second dense layer (no
  maximum with zero) of the whole input array.
-/
import proofs.«162314_j12979391168796_1_alg».proof.Proof.Gen.KernelIdeal.Frame
import proofs.«162314_j12979391168796_1_alg».proof.Proof.Dense
import Idealize.ShloMosaic.Lib.ValueIdx
import Idealize.ShloMosaic.Lib.Pipeline.Value

noncomputable section

open Idealize.ShloMosaic Idealize.ShloMosaic.ValueIdx Idealize.ShloMosaic.TcCoe Idealize.SL.Sem
open Idealize.ShloMosaic.Pipeline (Dat)

namespace Cert.Gcn.Region1

open Cert.KernelIdeal Cert.KernelIdeal.Gen

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- Where each window's block sits at grid point `t`: the row windows at block row `t`, the weights and the bias
    always at their one block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The staged block of the input rows at point `t` is rows `4000·t + p` of the array the region finds. -/
theorem rows_apply (c : Dev nD) (t : Fin cfg1.N) (p : Fin 4000) (k : Fin 128) :
    (iblk1 V c 0 t : Vec Ideal S4000x128 .f32) (ix2 p k)
      = (V c main_v26 : S100000x128.Idx → Elt Ideal .f32) (ix2 (⟨4000 * t.val + p.val, by have := p.isLt; have := t.isLt; have : cfg1.N = 25 := N_1; omega⟩ : Fin 100000) k) := by
  obtain ⟨e0, e1, -⟩ := block_indices t
  unfold iblk1
  rw [View.read_apply]
  show V c main_v26 _ = V c main_v26 _
  congr 1
  funext a
  apply Fin.ext
  match a with
  | ⟨0, _⟩ => show win1_0.index t 0 * 4000 + 1 * p.val = 4000 * t.val + p.val; rw [e0]; omega
  | ⟨1, _⟩ => show win1_0.index t 1 * 128 + 1 * k.val = k.val; rw [e1]; omega

/-- The staged weights at every point are the whole weight matrix. -/
theorem weights_eq (c : Dev nD) (t : Fin cfg1.N) :
    (iblk1 V c 1 t : Vec Ideal S128x64 .f32) = (V c main_arg6 : S128x64.Idx → Elt Ideal .f32) := by
  obtain ⟨-, -, e2, e3, -⟩ := block_indices t
  funext y
  unfold iblk1
  rw [View.read_apply]
  show V c main_arg6 _ = V c main_arg6 _
  congr 1
  funext a
  apply Fin.ext
  match a with
  | ⟨0, _⟩ => show win1_1.index t 0 * 128 + 1 * (y 0).val = (y 0).val; rw [e2]; omega
  | ⟨1, _⟩ => show win1_1.index t 1 * 64 + 1 * (y 1).val = (y 1).val; rw [e3]; omega

/-- The staged bias at every point is the whole bias. -/
theorem bias_eq (c : Dev nD) (t : Fin cfg1.N) :
    (iblk1 V c 2 t : Vec Ideal S64 .f32) = (V c main_arg7 : S64.Idx → Elt Ideal .f32) := by
  obtain ⟨-, -, -, -, e4, -⟩ := block_indices t
  funext y
  unfold iblk1
  rw [View.read_apply]
  show V c main_arg7 _ = V c main_arg7 _
  congr 1
  funext a
  apply Fin.ext
  match a with
  | ⟨0, _⟩ => show win1_2.index t 0 * 64 + 1 * (y 0).val = (y 0).val; rw [e4]; omega

/-- The region's output as a function of what it finds: the second dense layer of the input array. -/
abbrev layer (c : Dev nD) : S100000x64.Idx → Elt Ideal .f32 :=
  dense2 (V c main_v26) (V c main_arg6) (V c main_arg7)

/-- WHAT POINT `t` WRITES BACK is block `t` of the layer of the whole array. -/
theorem flushed_eq (c : Dev nD) (t : Fin cfg1.N) :
    (dat1 V c).flushed 3 t = ((cfg1.win 3).blk t).view.read (Elt Ideal) (layer V c) := by
  show (cfg1.win 3).cut (grid1.coords t) ((dat1 V c).after 3 t) = _
  rw [after1_3]
  unfold out1_3
  rw [View.canon_unit_zero off2]
  simp only [View.ld_unit_zero (S := S4000x128) off2, View.ld_unit_zero (S := S128x64) off2, View.ld_unit_zero (S := S64) off1]
  rw [weights_eq, bias_eq]
  obtain ⟨-, -, -, -, -, e5, e6⟩ := block_indices t
  have hN : cfg1.N = 25 := N_1
  funext j
  obtain ⟨p, q, rfl⟩ : ∃ (p : Fin 4000) (q : Fin 64), j = ix2 p q := ⟨j 0, j 1, eq_ix2 j⟩
  show k1_pay1 (iblk1 V c 0 t) (V c main_arg6) (V c main_arg7) (ix2 p q) = layer V c (((cfg1.win 3).blk t).view.emb (ix2 p q))
  have hemb : ((cfg1.win 3).blk t).view.emb (ix2 p q)
      = ix2 (⟨4000 * t.val + p.val, by have := p.isLt; have := t.isLt; omega⟩ : Fin 100000) q := by
    funext a
    apply Fin.ext
    match a with
    | ⟨0, _⟩ => show win1_3.index t 0 * 4000 + 1 * p.val = 4000 * t.val + p.val; rw [e5]; omega
    | ⟨1, _⟩ => show win1_3.index t 1 * 64 + 1 * q.val = q.val; rw [e6]; omega
  rw [hemb]
  exact pay1_eq_dense2 (iblk1 V c 0 t) (V c main_arg6) (V c main_arg7) (V c main_v26) t.val (by have := t.isLt; omega)
    (fun p k => rows_apply V c t p k) p q

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v27).slice (win1_3.rect t)).set ↔ _
  rw [View.set_slice_whole, Rect.mem_set_unit]
  exact Iff.rfl

/-- Every row of the output lies in the block of the point `row / 4000`. -/
theorem cover (i : S100000x64.Idx) : ∃ t : Fin cfg1.N, (cfg1.win 3).flush t = true ∧ i ∈ ((cfg1.win 3).blk t).view.set := by
  have hN : cfg1.N = 25 := N_1
  have hi0 : (i 0).val < 100000 := (i 0).isLt
  have hi1 : (i 1).val < 64 := (i 1).isLt
  let t : Fin cfg1.N := ⟨(i 0).val / 4000, by omega⟩
  obtain ⟨-, -, -, -, -, e5, e6⟩ := block_indices t
  have ht : t.val = (i 0).val / 4000 := rfl
  refine ⟨t, flush1_3 t, ?_⟩
  rw [mem_blk]
  intro a
  match a with
  | ⟨0, _⟩ => show win1_3.index t 0 * 4000 ≤ (i 0).val ∧ (i 0).val < win1_3.index t 0 * 4000 + 4000; rw [e5, ht]; omega
  | ⟨1, _⟩ => show win1_3.index t 1 * 64 ≤ (i 1).val ∧ (i 1).val < win1_3.index t 1 * 64 + 64; rw [e6]; omega

/-- THE OUTPUT ARRAY after the region: the second dense layer of the input array the region found. -/
theorem final (c : Dev nD) : (dat1 V c).arrAt 3 cfg1.N = layer V c :=
  (dat1 V c).arrAt_eq_of_cover 3 (layer V c) (fun t _ => flushed_eq V c t) cover

end Cert.Gcn.Region1

end
-- ==== Proof.Network.lean ====
/-
  The network as one function of the eight arguments.

  Both programs aggregate over the edges with the same host operations, in the same order: negative column indices
  are wrapped by adding 100000, the rows of the feature array at the column indices are gathered, each gathered
  row is scaled by its edge's value, and the scaled rows are added into a zero array at the row indices.  That stretch
  is named here once (`aggregate`) and never opened: the two programs apply it to equal operands.

  The whole network is then `dense2 (aggregate (dense1 (aggregate x) W1 b1)) W2 b2`, and the reference's run ends
  at exactly that term.
-/
import proofs.«162314_j12979391168796_1_alg».proof.Proof.Dense
import proofs.«162314_j12979391168796_1_alg».proof.Proof.Gen.ReferenceIdeal.Run

noncomputable section

open Idealize.ShloMosaic

namespace Cert.Gcn

open Cert.ReferenceIdeal Cert.ReferenceIdeal.Facts₀

/-- One aggregation over the edges: `out[r] = ∑ over edges e with rows[e] = r of vals[e] · x[cols[e]]`, as the host
    operations compute it (wrap, gather, scale, scatter-add into zeros). -/
def aggregate {F : FTy → Type} [FloatOps F] (rows cols : (⟨S1600000, .i32⟩ : BufTy).Contents (Elt F))
    (vals : (⟨S1600000, .f32⟩ : BufTy).Contents (Elt F)) (x : (⟨S100000x128, .f32⟩ : BufTy).Contents (Elt F)) :
    (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 rows) (mulf (broadcastInDim S1600000x128 ![0, 1] bcast_S1600000x1_S1600000x128_0_1 (broadcastInDim S1600000x1 ![0] bcast_S1600000_S1600000x1_0 vals)) (Host.gather gather_S100000x128_S1600000x1_S1600000x128_1_0_n_n_0_1_1128 x (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols))))

/-- The two-layer network on the extended reals. -/
def network (x : (⟨S100000x128, .f32⟩ : BufTy).Contents (Elt Ideal)) (rows cols : (⟨S1600000, .i32⟩ : BufTy).Contents (Elt Ideal))
    (vals : (⟨S1600000, .f32⟩ : BufTy).Contents (Elt Ideal)) (W1 : (⟨S128x128, .f32⟩ : BufTy).Contents (Elt Ideal))
    (b1 : (⟨S128, .f32⟩ : BufTy).Contents (Elt Ideal)) (W2 : (⟨S128x64, .f32⟩ : BufTy).Contents (Elt Ideal))
    (b2 : (⟨S64, .f32⟩ : BufTy).Contents (Elt Ideal)) : (⟨S100000x64, .f32⟩ : BufTy).Contents (Elt Ideal) :=
  dense2 (aggregate rows cols vals (dense1 (aggregate rows cols vals x) W1 b1)) W2 b2

open Idealize.ShloMosaic.TcCoe Idealize.SL.Sem in
/-- The reference's run ends with its result at the network of its arguments, the arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = network (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2⟩) (Cert.ReferenceIdeal.Value.run (F := Ideal) m ρ)

end Cert.Gcn

end
-- ==== Proof.KernelRun.lean ====
/-
  The kernel program's run with its result array named.

  @main is four segments: a stretch of host operations, the first region, a second stretch, the second region.  At
  the end every buffer that is not scoped to a region holds the last boundary's contents (the generated fold
  `W4`): read there, the result array and the eight arguments.  The arguments are back at their launch contents;
  the result is `W4` at the result's buffer, which the next module reads back through the fold.
-/
import proofs.«162314_j12979391168796_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the arguments as launched. -/
theorem run : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Gcn.KernelRun

end
-- ==== Proof.KernelValue.lean ====
/-
  The kernel program's result as the network of its arguments.

  The run leaves the result array at the last boundary's contents.  Reading the boundaries back:
    · the second region's output array is the second dense layer of what the region found (Region1);
    · what it found is the second host stretch applied to the first region's output: the aggregation of it, with the
      edge arrays, weights and bias still at their launch contents;
    · the first region's output array is the first dense layer of what that region found (Region0);
    · what it found is the first host stretch applied to the launch memory: the aggregation of the features.
  Composed, the result is the network of the launch arguments.
-/
import proofs.«162314_j12979391168796_1_alg».proof.Proof.Region0
import proofs.«162314_j12979391168796_1_alg».proof.Proof.Region1
import proofs.«162314_j12979391168796_1_alg».proof.Proof.Network
import proofs.«162314_j12979391168796_1_alg».proof.Proof.KernelRun
import Idealize.ShloMosaic.Lib.StableHlo.Run

noncomputable section

open Idealize.ShloMosaic Idealize.ShloMosaic.TcCoe Idealize.SL.Sem
open Idealize.ShloMosaic.Pipeline (Dat)

namespace Cert.Gcn.KernelValue

open Cert.KernelIdeal Cert.KernelIdeal.Gen

variable (m : (ℓ : Loc nD τ sig) → Buf (Elt Ideal) ℓ) (ρ : Dev nD → PrngReg)

/-! ## The first stretch, from the launch memory -/

/-- The first region finds the aggregation of the features in its input array … -/
theorem found0_rows (c : Dev nD) : (V1 m ρ c main_v12 : S100000x128.Idx → Elt Ideal .f32)
    = aggregate (m ((c : Thread nD τ).loc main_arg1)) (m ((c : Thread nD τ).loc main_arg2)) (m ((c : Thread nD τ).loc main_arg3))
        (m ((c : Thread nD τ).loc main_arg0)) := by
  show StableHlo.after hostOps0 (W0 m ρ c) (Proc.devRef .tc main_v12) = _
  after_results
  rfl

/-- … the first weight matrix as launched … -/
theorem found0_weights (c : Dev nD) : (V1 m ρ c main_arg4 : S128x128.Idx → Elt Ideal .f32) = m ((c : Thread nD τ).loc main_arg4) := by
  show StableHlo.after hostOps0 (W0 m ρ c) (Proc.devRef .tc main_arg4) = _
  after_results

/-- … and the first bias as launched. -/
theorem found0_bias (c : Dev nD) : (V1 m ρ c main_arg5 : S128.Idx → Elt Ideal .f32) = m ((c : Thread nD τ).loc main_arg5) := by
  show StableHlo.after hostOps0 (W0 m ρ c) (Proc.devRef .tc main_arg5) = _
  after_results

/-- So the first region leaves the hidden features: the first dense layer of the aggregated features. -/
theorem hidden (c : Dev nD) : (W2 m ρ c (Proc.devRef .tc main_v13) : S100000x128.Idx → Elt Ideal .f32)
    = dense1 (aggregate (m ((c : Thread nD τ).loc main_arg1)) (m ((c : Thread nD τ).loc main_arg2)) (m ((c : Thread nD τ).loc main_arg3))
        (m ((c : Thread nD τ).loc main_arg0))) (m ((c : Thread nD τ).loc main_arg4)) (m ((c : Thread nD τ).loc main_arg5)) := by
  refine (W2_arr m ρ c 3).trans ((Region0.final (V1 m ρ) c).trans ?_)
  show dense1 (V1 m ρ c main_v12) (V1 m ρ c main_arg4) (V1 m ρ c main_arg5) = _
  rw [found0_rows m ρ c, found0_weights m ρ c, found0_bias m ρ c]

/-! ## The second stretch, from the first region's exit -/

/-- The edge arrays, the second weight matrix and the second bias are untouched by the first stretch and the first region. -/
theorem kept_rows (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem kept_cols (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem kept_vals (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

theorem kept_weights2 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem kept_bias2 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-- The second region finds the aggregation of the first region's output in its input array … -/
theorem found1_rows (c : Dev nD) : (V3 m ρ c main_v26 : S100000x128.Idx → Elt Ideal .f32)
    = aggregate (W2 m ρ c (Proc.devRef .tc main_arg1)) (W2 m ρ c (Proc.devRef .tc main_arg2)) (W2 m ρ c (Proc.devRef .tc main_arg3))
        (W2 m ρ c (Proc.devRef .tc main_v13)) := by
  show StableHlo.after hostOps1 (W2 m ρ c) (Proc.devRef .tc main_v26) = _
  after_results
  rfl

/-- … the second weight matrix as launched … -/
theorem found1_weights (c : Dev nD) : (V3 m ρ c main_arg6 : S128x64.Idx → Elt Ideal .f32) = m ((c : Thread nD τ).loc main_arg6) :=
  (show StableHlo.after hostOps1 (W2 m ρ c) (Proc.devRef .tc main_arg6) = W2 m ρ c (Proc.devRef .tc main_arg6) by after_results).trans
    (kept_weights2 m ρ c)

/-- … and the second bias as launched. -/
theorem found1_bias (c : Dev nD) : (V3 m ρ c main_arg7 : S64.Idx → Elt Ideal .f32) = m ((c : Thread nD τ).loc main_arg7) :=
  (show StableHlo.after hostOps1 (W2 m ρ c) (Proc.devRef .tc main_arg7) = W2 m ρ c (Proc.devRef .tc main_arg7) by after_results).trans
    (kept_bias2 m ρ c)

/-! ## The result -/

/-- THE RESULT ARRAY at the last boundary is the network of the launch arguments. -/
theorem result (c : Dev nD) : (W4 m ρ c (Proc.devRef .tc main_v27) : S100000x64.Idx → Elt Ideal .f32)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 3).trans ((Region1.final (V3 m ρ) c).trans ?_)
  show dense2 (V3 m ρ c main_v26) (V3 m ρ c main_arg6) (V3 m ρ c main_arg7) = _
  rw [found1_rows m ρ c, found1_weights m ρ c, found1_bias m ρ c, kept_rows m ρ c, kept_cols m ρ c, kept_vals m ρ c, hidden m ρ c]
  rfl

/-- THE RUN, READ: the result array at the network of the arguments, the arguments unchanged. -/
theorem run : θ_run defs (onTc (τ := τ) (main (F := Ideal))) ⟨m, fun _ => 0, ρ⟩ (fun r => ∀ c : Dev nD,
      r.2.mem ((c.tc : Thread nD τ).loc main_v27) = network (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result m ρ c), (h c).2⟩) (KernelRun.run (F := Ideal) m ρ)

end Cert.Gcn.KernelValue

end
-- ==== Proof.lean ====
/-
  A two-layer graph convolution: the kernel program against its reference, on the extended reals.

  Both programs compute
      out = dense2 (aggregate (dense1 (aggregate x) W1 b1)) W2 b2
  where `aggregate h` sums, into each node's row, the rows of `h` at the edge's column index scaled by the edge's
  value (the same host operations in both programs), `dense1 h W b = max (h · W + b) 0` and `dense2 h W b = h · W + b`.
  The reference computes each dense layer on the whole [100000, 128] array with one matrix product; the kernel program
  computes it in 25 blocks of 4000 rows, each block's product taken into a zero accumulator from operands narrowed to
  bf16.  On the extended reals the narrowing is the identity and a block's entry at (p, q) is the same sum over the 128
  contracted positions as the whole array's entry at (4000·t + p, q); the 25 blocks tile the rows.  So the two results
  agree entry by entry, with no appeal to the inputs being finite (no sum is rearranged and nothing is cancelled).

  The modules: `Dense` reads one layer at an index on both sides; `Region0` and `Region1` turn each region's blocks
  into its whole output array; `Network` names the aggregation and the composed network and reads the reference's run;
  `KernelRun` is the kernel program's run with its result array named; `KernelValue` reads that array back through the
  two host stretches and the two regions to the network of the arguments.

  The three frames are the generated ones (the reference's is its run with the result dropped); the idealization
  rewrote no operation, so `preserves` is trivial.
-/
import proofs.«162314_j12979391168796_1_alg».proof.Defs
import proofs.«162314_j12979391168796_1_alg».proof.Proof.Gen.Kernel
import proofs.«162314_j12979391168796_1_alg».proof.Proof.Gen.Kernel.Skeleton
import proofs.«162314_j12979391168796_1_alg».proof.Proof.Gen.Kernel.Launch
import proofs.«162314_j12979391168796_1_alg».proof.Proof.Gen.Kernel.Points
import proofs.«162314_j12979391168796_1_alg».proof.Proof.Gen.Kernel.Frame
import proofs.«162314_j12979391168796_1_alg».proof.Proof.Gen.KernelIdeal
import proofs.«162314_j12979391168796_1_alg».proof.Proof.Gen.KernelIdeal.Skeleton
import proofs.«162314_j12979391168796_1_alg».proof.Proof.Gen.KernelIdeal.Launch
import proofs.«162314_j12979391168796_1_alg».proof.Proof.Gen.KernelIdeal.Points
import proofs.«162314_j12979391168796_1_alg».proof.Proof.Gen.KernelIdeal.Frame
import proofs.«162314_j12979391168796_1_alg».proof.Proof.Gen.ReferenceIdeal
import proofs.«162314_j12979391168796_1_alg».proof.Proof.Gen.ReferenceIdeal.Run
import proofs.«162314_j12979391168796_1_alg».proof.Proof.Gen.ReferenceIdeal.Read
import proofs.«162314_j12979391168796_1_alg».proof.Proof.Gen.Pre_finite_inputs
import proofs.«162314_j12979391168796_1_alg».proof.Proof.KernelValue
import Idealize.ShloMosaic.Adequacy
import Idealize.ShloMosaic.Init

noncomputable section

namespace Cert.Proof

open Idealize.ShloMosaic Idealize.SL.Sem

/-- The kernel program runs and leaves its arguments unchanged (the generated frame). -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The idealized reference runs and leaves its arguments unchanged: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with their result at the network of those
    arguments: the kernel program's by reading its regions' blocks back to whole arrays, the reference's directly. -/
theorem algebraic : Cert.algebraic_KernelIdeal_ReferenceIdeal := by
  intro m ρ m' ρ' _ hagree
  refine ⟨_, Cert.Gcn.KernelValue.run m ρ, ?_⟩
  refine (θ_run Cert.ReferenceIdeal.defs _ _).mono (fun _ h c => ⟨(h c).1.trans ?_, (h c).2⟩) (Cert.Gcn.reference_run m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
